-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x4096x32 : Shape := ⟨4, ![16, 16, 4096, 32]⟩
abbrev S16x16x32x4096 : Shape := ⟨4, ![16, 16, 32, 4096]⟩
abbrev S_ : Shape := ⟨0, ![]⟩

class Facts : Prop where
  bcast_S_S16x16x4096x32 : S_.BroadcastsInDim S16x16x4096x32 (![] : Fin 0 → Fin S16x16x4096x32.rank)
  reducesTo_S16x16x4096x32_S_d0_1_2_3 : S16x16x4096x32.ReducesTo [0, 1, 2, 3] S_
  h_S_ : 0 < S_.numel
  bcast_S_S16x16x32x4096 : S_.BroadcastsInDim S16x16x32x4096 (![] : Fin 0 → Fin S16x16x32x4096.rank)
  reducesTo_S16x16x32x4096_S_d0_1_2_3 : S16x16x32x4096.ReducesTo [0, 1, 2, 3] S_

variable [Facts]

def fn {F : FTy → Type} [FloatOps F] (main_arg0 : FVec F S16x16x4096x32 .f32) (main_arg1 : FVec F S16x16x32x4096 .f32) (main_arg2 : FVec F S16x16x4096x32 .f32) : IVec S_ 1 :=
  let main_v0 : FVec F S16x16x4096x32 .f32 := Host.absf main_arg0
  let main_cst : FVec F S_ .f32 := constant S_ .f32 0x7F800000#32
  let main_v1 : FVec F S16x16x4096x32 .f32 := broadcastInDim S16x16x4096x32 ![] bcast_S_S16x16x4096x32 main_cst
  let main_v2 : IVec S16x16x4096x32 1 := cmpf .olt main_v0 main_v1
  let main_c : IVec S_ 1 := constantI S_ 1 1#1
  let main_v3 : IVec S_ 1 := (fun x v => Host.reduce IntOp.andi x v reducesTo_S16x16x4096x32_S_d0_1_2_3 h_S_) main_v2 main_c
  let main_v4 : FVec F S16x16x32x4096 .f32 := Host.absf main_arg1
  let main_cst_0 : FVec F S_ .f32 := constant S_ .f32 0x7F800000#32
  let main_v5 : FVec F S16x16x32x4096 .f32 := broadcastInDim S16x16x32x4096 ![] bcast_S_S16x16x32x4096 main_cst_0
  let main_v6 : IVec S16x16x32x4096 1 := cmpf .olt main_v4 main_v5
  let main_c_1 : IVec S_ 1 := constantI S_ 1 1#1
  let main_v7 : IVec S_ 1 := (fun x v => Host.reduce IntOp.andi x v reducesTo_S16x16x32x4096_S_d0_1_2_3 h_S_) main_v6 main_c_1
  let main_v8 : IVec S_ 1 := andi main_v3 main_v7
  let main_v9 : FVec F S16x16x4096x32 .f32 := Host.absf main_arg2
  let main_cst_2 : FVec F S_ .f32 := constant S_ .f32 0x7F800000#32
  let main_v10 : FVec F S16x16x4096x32 .f32 := broadcastInDim S16x16x4096x32 ![] bcast_S_S16x16x4096x32 main_cst_2
  let main_v11 : IVec S16x16x4096x32 1 := cmpf .olt main_v9 main_v10
  let main_c_3 : IVec S_ 1 := constantI S_ 1 1#1
  let main_v12 : IVec S_ 1 := (fun x v => Host.reduce IntOp.andi x v reducesTo_S16x16x4096x32_S_d0_1_2_3 h_S_) main_v11 main_c_3
  let main_v13 : IVec S_ 1 := andi main_v8 main_v12
  main_v13
-- ==== Kernel.lean ====
abbrev S16x16x4096x32 : Shape := ⟨4, ![16, 16, 4096, 32]⟩
abbrev S16x16x32x4096 : Shape := ⟨4, ![16, 16, 32, 4096]⟩
abbrev S16x16x32x32 : Shape := ⟨4, ![16, 16, 32, 32]⟩
abbrev S1x1x32x4096 : Shape := ⟨4, ![1, 1, 32, 4096]⟩
abbrev S1x1x4096x32 : Shape := ⟨4, ![1, 1, 4096, 32]⟩
abbrev S1x1x32x32 : Shape := ⟨4, ![1, 1, 32, 32]⟩
abbrev S32x4096 : Shape := ⟨2, ![32, 4096]⟩
abbrev S4096x32 : Shape := ⟨2, ![4096, 32]⟩
abbrev S32x32 : Shape := ⟨2, ![32, 32]⟩
abbrev S_ : Shape := ⟨0, ![]⟩
abbrev S16x32x32 : Shape := ⟨3, ![16, 32, 32]⟩
abbrev S1x16x32x32 : Shape := ⟨4, ![1, 16, 32, 32]⟩

abbrev nBuf : Space → Nat
  | .hbm => 19
  | .vmem => 12
  | .smem => 0
  | _ => 0

abbrev bufTy : (tb : Table) → Fin (tcTables nBuf tb) → BufTy
  | .hbm, ⟨0, _⟩ => ⟨S16x16x4096x32, .f32⟩
  | .hbm, ⟨1, _⟩ => ⟨S16x16x32x4096, .f32⟩
  | .hbm, ⟨2, _⟩ => ⟨S16x16x4096x32, .f32⟩
  | .hbm, ⟨3, _⟩ => ⟨S16x16x32x32, .f32⟩
  | .hbm, ⟨4, _⟩ => ⟨S_, .f32⟩
  | .hbm, ⟨5, _⟩ => ⟨S16x32x32, .f32⟩
  | .hbm, ⟨6, _⟩ => ⟨S_, .f32⟩
  | .hbm, ⟨7, _⟩ => ⟨S16x32x32, .f32⟩
  | .hbm, ⟨8, _⟩ => ⟨S16x32x32, .f32⟩
  | .hbm, ⟨9, _⟩ => ⟨S1x16x32x32, .f32⟩
  | .hbm, ⟨10, _⟩ => ⟨S16x16x32x32, .f32⟩
  | .hbm, ⟨11, _⟩ => ⟨S16x16x32x32, .f32⟩
  | .hbm, ⟨12, _⟩ => ⟨S16x16x32x32, .f32⟩
  | .hbm, ⟨13, _⟩ => ⟨S_, .f32⟩
  | .hbm, ⟨14, _⟩ => ⟨S16x32x32, .f32⟩
  | .hbm, ⟨15, _⟩ => ⟨S1x16x32x32, .f32⟩
  | .hbm, ⟨16, _⟩ => ⟨S16x16x32x32, .f32⟩
  | .hbm, ⟨17, _⟩ => ⟨S16x16x32x32, .f32⟩
  | .hbm, ⟨18, _⟩ => ⟨S16x16x4096x32, .f32⟩
  | .local _ .vmem, ⟨0, _⟩ => ⟨S1x1x32x4096, .f32⟩
  | .local _ .vmem, ⟨1, _⟩ => ⟨S1x1x32x4096, .f32⟩
  | .local _ .vmem, ⟨2, _⟩ => ⟨S1x1x4096x32, .f32⟩
  | .local _ .vmem, ⟨3, _⟩ => ⟨S1x1x4096x32, .f32⟩
  | .local _ .vmem, ⟨4, _⟩ => ⟨S1x1x32x32, .f32⟩
  | .local _ .vmem, ⟨5, _⟩ => ⟨S1x1x32x32, .f32⟩
  | .local _ .vmem, ⟨6, _⟩ => ⟨S1x1x4096x32, .f32⟩
  | .local _ .vmem, ⟨7, _⟩ => ⟨S1x1x4096x32, .f32⟩
  | .local _ .vmem, ⟨8, _⟩ => ⟨S1x1x32x32, .f32⟩
  | .local _ .vmem, ⟨9, _⟩ => ⟨S1x1x32x32, .f32⟩
  | .local _ .vmem, ⟨10, _⟩ => ⟨S1x1x4096x32, .f32⟩
  | .local _ .vmem, ⟨11, _⟩ => ⟨S1x1x4096x32, .f32⟩
  | _, _ => ⟨S16x16x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x1x32x4096_S1x1x32x4096_0_0_0_0 : ∀ a, (![0, 0, 0, 0] : Fin 4 → Nat) a + S1x1x32x4096.size a ≤ S1x1x32x4096.size a
  h_S1x1x32x4096 : 0 < S1x1x32x4096.numel
  shapeCasts_S1x1x32x4096_S32x4096 : S1x1x32x4096.ShapeCasts S32x4096
  bitsLt_bf16_f32 : FTy.bits .bf16 < FTy.bits .f32
  inb_S1x1x4096x32_S1x1x4096x32_0_0_0_0 : ∀ a, (![0, 0, 0, 0] : Fin 4 → Nat) a + S1x1x4096x32.size a ≤ S1x1x4096x32.size a
  h_S1x1x4096x32 : 0 < S1x1x4096x32.numel
  shapeCasts_S1x1x4096x32_S4096x32 : S1x1x4096x32.ShapeCasts S4096x32
  inb_S1x1x32x32_S1x1x32x32_0_0_0_0 : ∀ a, (![0, 0, 0, 0] : Fin 4 → Nat) a + S1x1x32x32.size a ≤ S1x1x32x32.size a
  h_S1x1x32x32 : 0 < S1x1x32x32.numel
  shapeCasts_S1x1x32x32_S32x32 : S1x1x32x32.ShapeCasts S32x32
  shapeCasts_S32x32_S1x1x32x32 : S32x32.ShapeCasts S1x1x32x32
  reducesTo_S16x16x32x32_S16x32x32_d0 : S16x16x32x32.ReducesTo [0] S16x32x32
  h_S_ : 0 < S_.numel
  bcast_S_S16x32x32 : S_.BroadcastsInDim S16x32x32 (![] : Fin 0 → Fin S16x32x32.rank)
  bcast_S16x32x32_S1x16x32x32_1_2_3 : S16x32x32.BroadcastsInDim S1x16x32x32 (![1, 2, 3] : Fin 3 → Fin S1x16x32x32.rank)
  bcast_S1x16x32x32_S16x16x32x32_0_1_2_3 : S1x16x32x32.BroadcastsInDim S16x16x32x32 (![0, 1, 2, 3] : Fin 4 → Fin S16x16x32x32.rank)
  shapeCasts_S4096x32_S1x1x4096x32 : S4096x32.ShapeCasts S1x1x4096x32
  dot_S32x4096_S4096x32_S32x32_1_0_0_1_n_n_wf : DotDims.WF S32x4096 S4096x32 S32x32 [1] [0] [0] [1] [] []
  dot_S4096x32_S32x32_S4096x32_1_0_0_1_n_n_wf : DotDims.WF S4096x32 S32x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x4096.size a ≤ S16x16x32x4096.size a
  hwx0_0 : ∀ i : grid0.Coords, EltTy.bits .f32 = 32 ∨ (Rect.block (s := S16x16x32x4096) S1x1x32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x32.size a ≤ S16x16x4096x32.size a
  hwx0_1 : ∀ i : grid0.Coords, EltTy.bits .f32 = 32 ∨ (Rect.block (s := S16x16x4096x32) S1x1x4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32x32.size a ≤ S16x16x32x32.size a
  hwx0_2 : ∀ i : grid0.Coords, EltTy.bits .f32 = 32 ∨ (Rect.block (s := S16x16x32x32) S1x1x32x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4096x32.size a ≤ S16x16x4096x32.size a
  hwx1_0 : ∀ i : grid1.Coords, EltTy.bits .f32 = 32 ∨ (Rect.block (s := S16x16x4096x32) S1x1x4096x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x32x32.size a ≤ S16x16x32x32.size a
  hwx1_1 : ∀ i : grid1.Coords, EltTy.bits .f32 = 32 ∨ (Rect.block (s := S16x16x32x32) S1x1x32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096x32.size a ≤ S16x16x4096x32.size a
  hwx1_2 : ∀ i : grid1.Coords, EltTy.bits .f32 = 32 ∨ (Rect.block (s := S16x16x4096x32) S1x1x4096x32.size (cc1_transform_2 i) (hinb1_2 i)).WholeWords (EltTy.packing .f32)

variable [Facts₀]

def dot_S32x4096_S4096x32_S32x32_1_0_0_1_n_n : DotDims S32x4096 S4096x32 S32x32 where
  lhsContracting := [1]
  rhsContracting := [0]
  lhsNonContracting := [0]
  rhsNonContracting := [1]
  lhsBatch := []
  rhsBatch := []
  wf := dot_S32x4096_S4096x32_S32x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf

abbrev win0_0 : Pipeline.Window sig grid0 :=
  Pipeline.Window.ofSpec (Memref.whole main_arg1) S1x1x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1x4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1x4096x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x16x4096x32 : Shape := ⟨4, ![16, 16, 4096, 32]⟩
abbrev S16x16x32x4096 : Shape := ⟨4, ![16, 16, 32, 4096]⟩
abbrev S16x16x32x32 : Shape := ⟨4, ![16, 16, 32, 32]⟩
abbrev S_ : Shape := ⟨0, ![]⟩
abbrev S16x32x32 : Shape := ⟨3, ![16, 32, 32]⟩
abbrev S1x16x32x32 : Shape := ⟨4, ![1, 16, 32, 32]⟩

abbrev nBuf : Space → Nat
  | .hbm => 23
  | .vmem => 0
  | .smem => 0
  | _ => 0

abbrev bufTy : (tb : Table) → Fin (tcTables nBuf tb) → BufTy
  | .hbm, ⟨0, _⟩ => ⟨S16x16x4096x32, .f32⟩
  | .hbm, ⟨1, _⟩ => ⟨S16x16x32x4096, .f32⟩
  | .hbm, ⟨2, _⟩ => ⟨S16x16x4096x32, .f32⟩
  | .hbm, ⟨3, _⟩ => ⟨S16x16x32x32, .f32⟩
  | .hbm, ⟨4, _⟩ => ⟨S_, .f32⟩
  | .hbm, ⟨5, _⟩ => ⟨S_, .f32⟩
  | .hbm, ⟨6, _⟩ => ⟨S16x16x32x32, .f32⟩
  | .hbm, ⟨7, _⟩ => ⟨S16x16x32x32, .f32⟩
  | .hbm, ⟨8, _⟩ => ⟨S_, .f32⟩
  | .hbm, ⟨9, _⟩ => ⟨S16x32x32, .f32⟩
  | .hbm, ⟨10, _⟩ => ⟨S_, .f32⟩
  | .hbm, ⟨11, _⟩ => ⟨S16x32x32, .f32⟩
  | .hbm, ⟨12, _⟩ => ⟨S16x32x32, .f32⟩
  | .hbm, ⟨13, _⟩ => ⟨S1x16x32x32, .f32⟩
  | .hbm, ⟨14, _⟩ => ⟨S16x16x32x32, .f32⟩
  | .hbm, ⟨15, _⟩ => ⟨S16x16x32x32, .f32⟩
  | .hbm, ⟨16, _⟩ => ⟨S16x16x32x32, .f32⟩
  | .hbm, ⟨17, _⟩ => ⟨S_, .f32⟩
  | .hbm, ⟨18, _⟩ => ⟨S16x32x32, .f32⟩
  | .hbm, ⟨19, _⟩ => ⟨S1x16x32x32, .f32⟩
  | .hbm, ⟨20, _⟩ => ⟨S16x16x32x32, .f32⟩
  | .hbm, ⟨21, _⟩ => ⟨S16x16x32x32, .f32⟩
  | .hbm, ⟨22, _⟩ => ⟨S16x16x4096x32, .f32⟩
  | _, _ => ⟨S16x16x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S16x16x32x32 : S_.BroadcastsInDim S16x16x32x32 (![] : Fin 0 → Fin S16x16x32x32.rank)
  reducesTo_S16x16x32x32_S16x32x32_d0 : S16x16x32x32.ReducesTo [0] S16x32x32
  h_S_ : 0 < S_.numel
  bcast_S_S16x32x32 : S_.BroadcastsInDim S16x32x32 (![] : Fin 0 → Fin S16x32x32.rank)
  bcast_S16x32x32_S1x16x32x32_1_2_3 : S16x32x32.BroadcastsInDim S1x16x32x32 (![1, 2, 3] : Fin 3 → Fin S1x16x32x32.rank)
  bcast_S1x16x32x32_S16x16x32x32_0_1_2_3 : S1x16x32x32.BroadcastsInDim S16x16x32x32 (![0, 1, 2, 3] : Fin 4 → Fin S16x16x32x32.rank)
  dot_S16x16x32x4096_S16x16x4096x32_S16x16x32x32_3_2_2_3_01_01_wf : DotDims.WF S16x16x32x4096 S16x16x4096x32 S16x16x32x32 [3] [2] [2] [3] [0, 1] [0, 1]
  dot_S16x16x4096x32_S16x16x32x32_S16x16x4096x32_3_2_2_3_01_01_wf : DotDims.WF S16x16x4096x32 S16x16x32x32 S16x16x4096x32 [3] [2] [2] [3] [0, 1] [0, 1]

variable [Facts₀]

def dot_S16x16x32x4096_S16x16x4096x32_S16x16x32x32_3_2_2_3_01_01 : DotDims S16x16x32x4096 S16x16x4096x32 S16x16x32x32 where
  lhsContracting := [3]
  rhsContracting := [2]
  lhsNonContracting := [2]
  rhsNonContracting := [3]
  lhsBatch := [0, 1]
  rhsBatch := [0, 1]
  wf := dot_S16x16x32x4096_S16x16x4096x32_S16x16x32x32_3_2_2_3_01_01_wf
def dot_S16x16x4096x32_S16x16x32x32_S16x16x4096x32_3_2_2_3_01_01 : DotDims S16x16x4096x32 S16x16x32x32 S16x16x4096x32 where
  lhsContracting := [3]
  rhsContracting := [2]
  lhsNonContracting := [2]
  rhsNonContracting := [3]
  lhsBatch := [0, 1]
  rhsBatch := [0, 1]
  wf := dot_S16x16x4096x32_S16x16x32x32_S16x16x4096x32_3_2_2_3_01_01_wf

class Facts : Prop extends Facts₀ where

variable [Facts]
-- ==== Proof.KernelRun.lean ====
/-
  The idealized kernel's run with the contents of EVERY unscoped buffer at the return named.

  @main is three segments: the scores region, the host stretch that takes the softmax over the batch axis, and the
  output region. The buffer contents at the segment boundaries are a fold from the launch memory: `W0` (launch),
  `W1` (the scores region's arrays at what its write-backs leave), `W2` (the host stretch applied to `W1`), `W3` (the
  output region's arrays at what its write-backs leave). Every weakly fair execution terminates, nothing faulting, in
  a memory whose unscoped buffers ALL hold `W3` — in particular the two results, which the value proof reads, and the
  three arguments, which end as launched.
-/
import proofs.«105160_j53334903881772_1_alg».proof.Proof.Gen.KernelIdeal.Frame

set_option maxRecDepth 16384

noncomputable section

namespace Cert.KernelIdeal.Contents

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents `W3`: the three segments chained from the
    launch (each segment's exit state is literally the next one's entry state), the first state made from what the launch
    deals each core (its unscoped buffers at the launch memory, its generator register, nothing owed), and the last state's
    buffers read against the final physical memory. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost element is the pipelines' own; no core is given anything beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      -- per core: the unscoped buffers at the launch memory are the first state's, the register and the empty debt ride along
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W3 m ρ c b)
    (hfin := fun c s' => by
      -- holding every unscoped buffer at `W3` beside the state interpretation pins the physical memory there
      iintro ⟨⟨Hbufs, -⟩, HSI⟩
      unfold StableHlo.held
      imodintro
      iapply (pointsTo_read_all (Pipeline.ucRefs τ sig) (fun b => (((c : Thread nD τ)).1, b)) (W3 m ρ c) s')
      isplitl [Hbufs] <;> iassumption)
    (hQ := fun s h c => h c)

/-- The result buffers and the arguments are unscoped, so the run names them: the attention weights and the output at
    `W3`, each argument as launched (no host operation and no region writes an argument). -/
theorem run_results : θ_run defs (onTc (τ := τ) (main (F := F))) ⟨m, fun _ => 0, ρ⟩ (fun r => ∀ c : Dev nD,
      r.2.mem ((c.tc : Thread nD τ).loc main_v12) = W3 m ρ c (Proc.devRef .tc main_v12)
      ∧ r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v12 (by decide)),
     h c _ (mem_uc main_v11 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩)
    (run_contents m ρ)

end Cert.KernelIdeal.Contents

end
-- ==== Proof.KernelPayloads.lean ====
/-
  What each kernel body stores, read at one element, on the extended reals.

  The scores body loads one batch-and-head's key block `[1,1,32,4096]` and value block `[1,1,4096,32]`, drops the two
  unit axes, rounds both to bf16 (the identity on the extended reals), multiplies the `32 × 4096` matrix by the
  `4096 × 32` one into a zero accumulator, scales by the literal `2⁻⁶`, and stores the `32 × 32` product with the unit
  axes put back. So the stored element `(·,·,d,e)` is `(∑ₛ key(d,s) · value(s,e)) · 2⁻⁶`.

  The output body does the same with the query block `[1,1,4096,32]` against the weight block `[1,1,32,32]` and no
  scaling: the stored element `(·,·,l,e)` is `∑_d query(l,d) · weight(d,e)`.

  A matrix product into the zero accumulator, read at `(r, c)`, is the sum over the contracted axis of the operands'
  products: the contraction index of the product's dimension record is re-indexed to `Fin` of its extent, and the
  record's operand indices are `(r, k)` and `(k, c)`.
-/
import proofs.«105160_j53334903881772_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- The scores body's product: keys `32 × 4096` by values `4096 × 32`. -/
abbrev dotKV : DotDims S32x4096 S4096x32 S32x32 := dot_S32x4096_S4096x32_S32x32_1_0_0_1_n_n
/-- The output body's product: queries `4096 × 32` by weights `32 × 32`. -/
abbrev dotQW : DotDims S4096x32 S32x32 S4096x32 := dot_S4096x32_S32x32_S4096x32_1_0_0_1_n_n

/-! ## The operand indices of the two products -/

theorem kv_lhs_row (j : S32x32.Idx) (q : dotKV.contr.Idx) : (dotKV.lhsIdx j q 0).val = (j 0).val := by
  unfold DotDims.lhsIdx
  rw [dif_neg (show ¬(0 : Fin S32x4096.rank) ∈ dotKV.lhsBatch by decide),
    dif_pos (show (0 : Fin S32x4096.rank) ∈ dotKV.lhsNonContracting by decide)]
  rfl

theorem kv_rhs_col (j : S32x32.Idx) (q : dotKV.contr.Idx) : (dotKV.rhsIdx j q 1).val = (j 1).val := by
  unfold DotDims.rhsIdx
  rw [dif_neg (show ¬(1 : Fin S4096x32.rank) ∈ dotKV.rhsBatch by decide),
    dif_pos (show (1 : Fin S4096x32.rank) ∈ dotKV.rhsNonContracting by decide)]
  rfl

theorem qw_lhs_row (j : S4096x32.Idx) (q : dotQW.contr.Idx) : (dotQW.lhsIdx j q 0).val = (j 0).val := by
  unfold DotDims.lhsIdx
  rw [dif_neg (show ¬(0 : Fin S4096x32.rank) ∈ dotQW.lhsBatch by decide),
    dif_pos (show (0 : Fin S4096x32.rank) ∈ dotQW.lhsNonContracting by decide)]
  rfl

theorem qw_rhs_col (j : S4096x32.Idx) (q : dotQW.contr.Idx) : (dotQW.rhsIdx j q 1).val = (j 1).val := by
  unfold DotDims.rhsIdx
  rw [dif_neg (show ¬(1 : Fin S32x32.rank) ∈ dotQW.rhsBatch by decide),
    dif_pos (show (1 : Fin S32x32.rank) ∈ dotQW.rhsNonContracting by decide)]
  rfl

/-! ## The two products into a zero accumulator, read at an element -/

/-- Keys by values at `(d, e)`: the sum over the 4096 sequence positions. -/
theorem kv_matmul_apply (a : FVec Ideal S32x4096 .bf16) (b : FVec Ideal S4096x32 .bf16) (d e : Fin 32) :
    matmul dotKV none a b (constant (F := Ideal) S32x32 .f32 0x00000000#32) (ix2 d e)
      = ∑ s : Fin 4096, a (ix2 d s) * b (ix2 s e) := by
  simp only [matmul]
  rw [Ideal.matmul_constant_zero_apply, ← Equiv.sum_comp (contrEquiv1 dotKV 4096 rfl rfl).symm]
  refine Finset.sum_congr rfl fun s _ => ?_
  have hs := contrEquiv1_symm_val dotKV 4096 rfl rfl s
  have el : dotKV.lhsIdx (ix2 d e) ((contrEquiv1 dotKV 4096 rfl rfl).symm s) = ix2 d s := funext fun x => Fin.ext (by
    match x with
    | ⟨0, _⟩ => exact kv_lhs_row _ _
    | ⟨1, _⟩ => exact (dotKV.lhsIdx_val_of_single rfl _ _).trans hs)
  have er : dotKV.rhsIdx (ix2 d e) ((contrEquiv1 dotKV 4096 rfl rfl).symm s) = ix2 s e := funext fun x => Fin.ext (by
    match x with
    | ⟨0, _⟩ => exact (dotKV.rhsIdx_val_of_single rfl _ _).trans hs
    | ⟨1, _⟩ => exact kv_rhs_col _ _)
  rw [el, er]

/-- Queries by weights at `(l, e)`: the sum over the 32 head dimensions. -/
theorem qw_matmul_apply (a : FVec Ideal S4096x32 .bf16) (b : FVec Ideal S32x32 .bf16) (l : Fin 4096) (e : Fin 32) :
    matmul dotQW none a b (constant (F := Ideal) S4096x32 .f32 0x00000000#32) (ix2 l e)
      = ∑ d : Fin 32, a (ix2 l d) * b (ix2 d e) := by
  simp only [matmul]
  rw [Ideal.matmul_constant_zero_apply, ← Equiv.sum_comp (contrEquiv1 dotQW 32 rfl rfl).symm]
  refine Finset.sum_congr rfl fun s _ => ?_
  have hs := contrEquiv1_symm_val dotQW 32 rfl rfl s
  have el : dotQW.lhsIdx (ix2 l e) ((contrEquiv1 dotQW 32 rfl rfl).symm s) = ix2 l s := funext fun x => Fin.ext (by
    match x with
    | ⟨0, _⟩ => exact qw_lhs_row _ _
    | ⟨1, _⟩ => exact (dotQW.lhsIdx_val_of_single rfl _ _).trans hs)
  have er : dotQW.rhsIdx (ix2 l e) ((contrEquiv1 dotQW 32 rfl rfl).symm s) = ix2 s e := funext fun x => Fin.ext (by
    match x with
    | ⟨0, _⟩ => exact (dotQW.rhsIdx_val_of_single rfl _ _).trans hs
    | ⟨1, _⟩ => exact qw_rhs_col _ _)
  rw [el, er]

/-! ## Dropping and restoring the two leading unit axes -/

/-- A `[1,1,A,B]` block viewed `[A,B]` reads `(0,0,r,c)` at `(r,c)`; an `[A,B]` matrix stored as a `[1,1,A,B]` block reads
    `(r,c)` at `(·,·,r,c)`: the row-major positions agree because the unit axes contribute nothing. -/
theorem drop_units_keys (x : S1x1x32x4096.Idx → EReal) (d : Fin 32) (s : Fin 4096) :
    shapeCast S32x4096 x shapeCasts_S1x1x32x4096_S32x4096 (ix2 d s) = x (ix4 0 0 d s) :=
  shapeCast_apply x _ (ix2 d s) (ix4 0 0 d s) (by
    rw [Shape.rowMajor_val_two, Shape.rowMajor_val_four]
    show ((0 * 1 + 0) * 32 + d.val) * 4096 + s.val = d.val * 4096 + s.val
    omega)

theorem drop_units_tall (x : S1x1x4096x32.Idx → EReal) (s : Fin 4096) (e : Fin 32) :
    shapeCast S4096x32 x shapeCasts_S1x1x4096x32_S4096x32 (ix2 s e) = x (ix4 0 0 s e) :=
  shapeCast_apply x _ (ix2 s e) (ix4 0 0 s e) (by
    rw [Shape.rowMajor_val_two, Shape.rowMajor_val_four]
    show ((0 * 1 + 0) * 4096 + s.val) * 32 + e.val = s.val * 32 + e.val
    omega)

theorem drop_units_square (x : S1x1x32x32.Idx → EReal) (d e : Fin 32) :
    shapeCast S32x32 x shapeCasts_S1x1x32x32_S32x32 (ix2 d e) = x (ix4 0 0 d e) :=
  shapeCast_apply x _ (ix2 d e) (ix4 0 0 d e) (by
    rw [Shape.rowMajor_val_two, Shape.rowMajor_val_four]
    show ((0 * 1 + 0) * 32 + d.val) * 32 + e.val = d.val * 32 + e.val
    omega)

theorem add_units_square (w : S32x32.Idx → EReal) (a0 a1 : Fin 1) (d e : Fin 32) :
    shapeCast S1x1x32x32 w shapeCasts_S32x32_S1x1x32x32 (ix4 a0 a1 d e) = w (ix2 d e) :=
  shapeCast_apply w _ (ix4 a0 a1 d e) (ix2 d e) (by
    rw [Shape.rowMajor_val_two, Shape.rowMajor_val_four]
    show d.val * 32 + e.val = ((a0.val * 1 + a1.val) * 32 + d.val) * 32 + e.val
    have := a0.isLt; have := a1.isLt
    omega)

theorem add_units_tall (w : S4096x32.Idx → EReal) (a0 a1 : Fin 1) (l : Fin 4096) (e : Fin 32) :
    shapeCast S1x1x4096x32 w shapeCasts_S4096x32_S1x1x4096x32 (ix4 a0 a1 l e) = w (ix2 l e) :=
  shapeCast_apply w _ (ix4 a0 a1 l e) (ix2 l e) (by
    rw [Shape.rowMajor_val_two, Shape.rowMajor_val_four]
    show l.val * 32 + e.val = ((a0.val * 1 + a1.val) * 4096 + l.val) * 32 + e.val
    have := a0.isLt; have := a1.isLt
    omega)

/-! ## The stored values -/

/-- The scores body stores, at `(·,·,d,e)`, the key–value contraction over the sequence times `2⁻⁶`. -/
theorem scores_payload (x0 : Vec Ideal S1x1x32x4096 .f32) (x1 : Vec Ideal S1x1x4096x32 .f32) (a0 a1 : Fin 1) (d e : Fin 32) :
    k0_pay1 x0 x1 (ix4 a0 a1 d e)
      = (∑ s : Fin 4096, x0 (ix4 0 0 d s) * x1 (ix4 0 0 s e)) * Ideal.ofBits .f32 0x3C800000#32 := by
  unfold k0_pay1
  rw [add_units_square]
  show matmul dotKV none _ _ (constant (F := Ideal) S32x32 .f32 0x00000000#32) (ix2 d e) * Ideal.ofBits .f32 0x3C800000#32 = _
  rw [kv_matmul_apply]
  refine congrArg (· * _) (Finset.sum_congr rfl fun s _ => ?_)
  show shapeCast S32x4096 x0 shapeCasts_S1x1x32x4096_S32x4096 (ix2 d s) * shapeCast S4096x32 x1 shapeCasts_S1x1x4096x32_S4096x32 (ix2 s e) = _
  rw [drop_units_keys, drop_units_tall]

/-- The output body stores, at `(·,·,l,e)`, the query–weight contraction over the head dimension. -/
theorem output_payload (x0 : Vec Ideal S1x1x4096x32 .f32) (x1 : Vec Ideal S1x1x32x32 .f32) (a0 a1 : Fin 1) (l : Fin 4096) (e : Fin 32) :
    k1_pay1 x0 x1 (ix4 a0 a1 l e) = ∑ d : Fin 32, x0 (ix4 0 0 l d) * x1 (ix4 0 0 d e) := by
  unfold k1_pay1
  rw [add_units_tall]
  show matmul dotQW none _ _ (constant (F := Ideal) S4096x32 .f32 0x00000000#32) (ix2 l e) = _
  rw [qw_matmul_apply]
  refine Finset.sum_congr rfl fun d _ => ?_
  show shapeCast S4096x32 x0 shapeCasts_S1x1x4096x32_S4096x32 (ix2 l d) * shapeCast S32x32 x1 shapeCasts_S1x1x32x32_S32x32 (ix2 d e) = _
  rw [drop_units_tall, drop_units_square]

end Cert.KernelIdeal.Payloads

end
-- ==== Proof.Spec.lean ====
/-
  The mathematics both programs compute, on the extended reals, as functions of the three argument arrays
  `q : [16,16,4096,32]`, `k : [16,16,32,4096]`, `v : [16,16,4096,32]` (batch, head, and two matrix axes).

  * the scaled scores: for each batch `b`, head `h` and matrix position `(d, e)`,
      `scores k v (b,h,d,e) = (∑ₛ k(b,h,d,s) · v(b,h,s,e)) · 2⁻⁶`, the sum over the 4096 sequence positions;
  * the attention weights: a softmax of the scores ALONG THE BATCH AXIS (axis 0), position by position — it is carried
    through the proof as one function of the score array and never opened (both programs apply the same operations);
  * the output: `output q w (b,h,l,e) = ∑_d q(b,h,l,d) · w(b,h,d,e)`, the sum over the 32 head dimensions.

  The order of summation is fixed here once (`Fin`-indexed sums); both programs' contractions are read at an index as
  exactly these sums, so no rearrangement of a sum, and hence no finiteness of the inputs, is needed.
-/
import Idealize.ShloMosaic.PureOps.Ideal
import Idealize.ShloMosaic.Lib.ValueIdx

noncomputable section

namespace Cert.BatchSoftmaxAttention

open Idealize.ShloMosaic Idealize.ShloMosaic.ValueIdx

/-- Keys: batch, head, head dimension, sequence position. -/
abbrev SK : Shape := ⟨4, ![16, 16, 32, 4096]⟩
/-- Values, queries and the output: batch, head, sequence position, head dimension. -/
abbrev SV : Shape := ⟨4, ![16, 16, 4096, 32]⟩
/-- Scores and attention weights: batch, head, and a 32 × 32 matrix. -/
abbrev SW : Shape := ⟨4, ![16, 16, 32, 32]⟩

/-- One scaled score: the contraction of a key row with a value column over the sequence, times `2⁻⁶`. -/
def scoreAt (k : SK.Idx → EReal) (v : SV.Idx → EReal) (b h : Fin 16) (d e : Fin 32) : EReal :=
  (∑ s : Fin 4096, k (ix4 b h d s) * v (ix4 b h s e)) * Ideal.ofBits .f32 0x3C800000#32

/-- The score array. -/
def scores (k : SK.Idx → EReal) (v : SV.Idx → EReal) : SW.Idx → EReal :=
  fun i => scoreAt k v (i 0) (i 1) (i 2) (i 3)

theorem scores_ix4 (k : SK.Idx → EReal) (v : SV.Idx → EReal) (b h : Fin 16) (d e : Fin 32) :
    scores k v (ix4 b h d e) = scoreAt k v b h d e := rfl

/-- One output element: a query row against a column of that batch and head's weight matrix. -/
def outputAt (q : SV.Idx → EReal) (w : SW.Idx → EReal) (b h : Fin 16) (l : Fin 4096) (e : Fin 32) : EReal :=
  ∑ d : Fin 32, q (ix4 b h l d) * w (ix4 b h d e)

/-- The output array. -/
def output (q : SV.Idx → EReal) (w : SW.Idx → EReal) : SV.Idx → EReal :=
  fun i => outputAt q w (i 0) (i 1) (i 2) (i 3)

theorem output_ix4 (q : SV.Idx → EReal) (w : SW.Idx → EReal) (b h : Fin 16) (l : Fin 4096) (e : Fin 32) :
    output q w (ix4 b h l e) = outputAt q w b h l e := rfl

end Cert.BatchSoftmaxAttention

end
-- ==== Proof.ScoresArray.lean ====
/-
  The score array after the scores region: one whole-array function of the key and value arrays.

  The region's grid has 256 points; point `t` is batch `t / 16` and head `t % 16`, and all three windows sit at block
  `(t / 16, t % 16, 0, 0)`: the key block `[1,1,32,4096]`, the value block `[1,1,4096,32]` and the score block
  `[1,1,32,32]` of that batch and head. So what point `t` writes back is block `t` of the score array `scores k v` of
  the arrays the region finds, and since every index `(b,h,d,e)` lies in the block of point `16 b + h`, the blocks cover
  the array: after the region the score buffer holds `scores k v` everywhere.
-/
import proofs.«105160_j53334903881772_1_alg».proof.Proof.Gen.KernelIdeal.Frame
import proofs.«105160_j53334903881772_1_alg».proof.Proof.KernelPayloads
import proofs.«105160_j53334903881772_1_alg».proof.Proof.Spec
import Idealize.ShloMosaic.Lib.Pipeline.Value

set_option maxRecDepth 16384

noncomputable section

namespace Cert.KernelIdeal.ScoresArray

open Cert.KernelIdeal Cert.KernelIdeal.Gen Cert.KernelIdeal.Payloads Cert.BatchSoftmaxAttention
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- Point `t` is batch `t / 16`, head `t % 16`: every window's block index there is `(t / 16, t % 16, 0, 0)`. -/
theorem block_index : ∀ t : Fin cfg0.N,
    win0_0.index t (0 : Fin 4) = t.val / 16 ∧ win0_0.index t (1 : Fin 4) = t.val % 16
    ∧ win0_0.index t (2 : Fin 4) = 0 ∧ win0_0.index t (3 : Fin 4) = 0
    ∧ win0_1.index t (0 : Fin 4) = t.val / 16 ∧ win0_1.index t (1 : Fin 4) = t.val % 16
    ∧ win0_1.index t (2 : Fin 4) = 0 ∧ win0_1.index t (3 : Fin 4) = 0
    ∧ win0_2.index t (0 : Fin 4) = t.val / 16 ∧ win0_2.index t (1 : Fin 4) = t.val % 16
    ∧ win0_2.index t (2 : Fin 4) = 0 ∧ win0_2.index t (3 : Fin 4) = 0 :=
  (by decide +kernel : ∀ t : Fin grid0.N, _)

/-- The body's stored block is the score array's block of batch `b`, head `h`, as soon as its two loaded blocks are
    the key and value arrays' blocks of that batch and head. -/
theorem block_is_scores (K : SK.Idx → EReal) (Vl : SV.Idx → EReal)
    (x0 : Vec Ideal S1x1x32x4096 .f32) (x1 : Vec Ideal S1x1x4096x32 .f32) (b h : Fin 16)
    (h0 : ∀ (d : Fin 32) (s : Fin 4096), x0 (ix4 0 0 d s) = K (ix4 b h d s))
    (h1 : ∀ (s : Fin 4096) (e : Fin 32), x1 (ix4 0 0 s e) = Vl (ix4 b h s e))
    (y : S1x1x32x32.Idx) (i : SW.Idx)
    (hi0 : (i 0).val = b.val) (hi1 : (i 1).val = h.val) (hi2 : (i 2).val = (y 2).val) (hi3 : (i 3).val = (y 3).val) :
    k0_pay1 x0 x1 y = scores K Vl i := by
  obtain ⟨a0, a1, d, e, rfl⟩ : ∃ (a0 a1 : Fin 1) (d e : Fin 32), y = ix4 a0 a1 d e := ⟨y 0, y 1, y 2, y 3, eq_ix4 y⟩
  have hi : i = ix4 b h d e := funext fun a => Fin.ext (by
    match a with
    | ⟨0, _⟩ => exact hi0
    | ⟨1, _⟩ => exact hi1
    | ⟨2, _⟩ => exact hi2
    | ⟨3, _⟩ => exact hi3)
  subst hi
  rw [scores_payload, scores_ix4]
  unfold scoreAt
  simp only [h0, h1]

/-- WHAT POINT `t` WRITES BACK is block `t` of the score array of the key and value arrays as the region finds them. -/
theorem flushed_scores (c : Dev nD) (t : Fin cfg0.N) :
    (dat0 V c).flushed 2 t = ((cfg0.win 2).blk t).view.read (Elt Ideal) (scores (V c main_arg1) (V c main_arg2)) := by
  show (cfg0.win 2).cut (grid0.coords t) ((dat0 V c).after 2 t) = _
  rw [after0_2]
  unfold out0_2
  rw [View.canon_unit_zero zero_offsets]
  simp only [View.ld_unit_zero (S := S1x1x32x4096) zero_offsets, View.ld_unit_zero (S := S1x1x4096x32) zero_offsets]
  obtain ⟨k0, k1, k2, k3, v0, v1, v2, v3, o0, o1, o2, o3⟩ := block_index t
  have hN : cfg0.N = 256 := N_0
  have ht : t.val < 256 := hN ▸ t.isLt
  funext j
  have hj0 : (j 0).val < 1 := (j 0).isLt
  have hj1 : (j 1).val < 1 := (j 1).isLt
  refine block_is_scores (V c main_arg1) (V c main_arg2) (iblk0 V c 0 t) (iblk0 V c 1 t)
    ⟨t.val / 16, by omega⟩ ⟨t.val % 16, by omega⟩ ?_ ?_ j (((cfg0.win 2).blk t).view.emb j) ?_ ?_ ?_ ?_
  · intro d s
    show V c main_arg1 (((cfg0.win 0).blk t).view.emb (ix4 0 0 d s)) = _
    refine congrArg (V c main_arg1) (funext fun a => Fin.ext ?_)
    match a with
    | ⟨0, _⟩ => show win0_0.index t (0 : Fin 4) * 1 + 1 * 0 = t.val / 16; omega
    | ⟨1, _⟩ => show win0_0.index t (1 : Fin 4) * 1 + 1 * 0 = t.val % 16; omega
    | ⟨2, _⟩ => show win0_0.index t (2 : Fin 4) * 32 + 1 * d.val = d.val; omega
    | ⟨3, _⟩ => show win0_0.index t (3 : Fin 4) * 4096 + 1 * s.val = s.val; omega
  · intro s e
    show V c main_arg2 (((cfg0.win 1).blk t).view.emb (ix4 0 0 s e)) = _
    refine congrArg (V c main_arg2) (funext fun a => Fin.ext ?_)
    match a with
    | ⟨0, _⟩ => show win0_1.index t (0 : Fin 4) * 1 + 1 * 0 = t.val / 16; omega
    | ⟨1, _⟩ => show win0_1.index t (1 : Fin 4) * 1 + 1 * 0 = t.val % 16; omega
    | ⟨2, _⟩ => show win0_1.index t (2 : Fin 4) * 4096 + 1 * s.val = s.val; omega
    | ⟨3, _⟩ => show win0_1.index t (3 : Fin 4) * 32 + 1 * e.val = e.val; omega
  · show win0_2.index t (0 : Fin 4) * 1 + 1 * (j 0).val = t.val / 16; omega
  · show win0_2.index t (1 : Fin 4) * 1 + 1 * (j 1).val = t.val % 16; omega
  · show win0_2.index t (2 : Fin 4) * 32 + 1 * (j 2).val = (j 2).val; omega
  · show win0_2.index t (3 : Fin 4) * 32 + 1 * (j 3).val = (j 3).val; omega

/-- An index of the score array is in point `t`'s block iff each coordinate is in the block's range on its axis. -/
theorem mem_block (t : Fin cfg0.N) (i : S16x16x32x32.Idx) :
    i ∈ ((cfg0.win 2).blk t).view.set ↔ ∀ a : Fin 4, win0_2.index t a * S1x1x32x32.size a ≤ (i a).val
      ∧ (i a).val < win0_2.index t a * S1x1x32x32.size a + S1x1x32x32.size a := by
  show i ∈ ((View.whole main_v0).slice (win0_2.rect t)).set ↔ _
  rw [View.set_slice_whole, Rect.mem_set_unit]
  exact Iff.rfl

/-- Every index `(b,h,d,e)` is in the block of point `16 b + h`, which is written back. -/
theorem covered (i : S16x16x32x32.Idx) :
    ∃ t : Fin cfg0.N, (cfg0.win 2).flush t = true ∧ i ∈ ((cfg0.win 2).blk t).view.set := by
  have hi0 : (i 0).val < 16 := (i 0).isLt
  have hi1 : (i 1).val < 16 := (i 1).isLt
  have hi2 : (i 2).val < 32 := (i 2).isLt
  have hi3 : (i 3).val < 32 := (i 3).isLt
  have hN : cfg0.N = 256 := N_0
  obtain ⟨t, ht⟩ : ∃ t : Fin cfg0.N, t.val = (i 0).val * 16 + (i 1).val := ⟨⟨(i 0).val * 16 + (i 1).val, by rw [hN]; omega⟩, rfl⟩
  obtain ⟨-, -, -, -, -, -, -, -, o0, o1, o2, o3⟩ := block_index t
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 32 ≤ (i 2).val ∧ (i 2).val < win0_2.index t (2 : Fin 4) * 32 + 32; omega
  | ⟨3, _⟩ => show win0_2.index t (3 : Fin 4) * 32 ≤ (i 3).val ∧ (i 3).val < win0_2.index t (3 : Fin 4) * 32 + 32; omega

/-- THE SCORE ARRAY after the region: `scores` of the key and value arrays the region found. -/
theorem scores_array (c : Dev nD) :
    (dat0 V c).arrAt 2 cfg0.N = scores (V c main_arg1) (V c main_arg2) :=
  (dat0 V c).arrAt_eq_of_cover 2 _ (fun t _ => flushed_scores V c t) covered

end Cert.KernelIdeal.ScoresArray

end
-- ==== Proof.OutputArray.lean ====
/-
  The output array after the output region: one whole-array function of the query array and the weight array.

  As in the scores region the grid has 256 points, point `t` being batch `t / 16` and head `t % 16`, and all three
  windows sit at block `(t / 16, t % 16, 0, 0)`: the query block `[1,1,4096,32]`, the weight block `[1,1,32,32]` and
  the output block `[1,1,4096,32]` of that batch and head. What point `t` writes back is block `t` of `output q w` of
  the arrays the region finds; every index `(b,h,l,e)` lies in the block of point `16 b + h`, so the blocks cover the
  array and the output buffer ends holding `output q w`.
-/
import proofs.«105160_j53334903881772_1_alg».proof.Proof.Gen.KernelIdeal.Frame
import proofs.«105160_j53334903881772_1_alg».proof.Proof.KernelPayloads
import proofs.«105160_j53334903881772_1_alg».proof.Proof.Spec
import Idealize.ShloMosaic.Lib.Pipeline.Value

set_option maxRecDepth 16384

noncomputable section

namespace Cert.KernelIdeal.OutputArray

open Cert.KernelIdeal Cert.KernelIdeal.Gen Cert.KernelIdeal.Payloads Cert.BatchSoftmaxAttention
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- Point `t` is batch `t / 16`, head `t % 16`: every window's block index there is `(t / 16, t % 16, 0, 0)`. -/
theorem block_index : ∀ t : Fin cfg1.N,
    win1_0.index t (0 : Fin 4) = t.val / 16 ∧ win1_0.index t (1 : Fin 4) = t.val % 16
    ∧ win1_0.index t (2 : Fin 4) = 0 ∧ win1_0.index t (3 : Fin 4) = 0
    ∧ win1_1.index t (0 : Fin 4) = t.val / 16 ∧ win1_1.index t (1 : Fin 4) = t.val % 16
    ∧ win1_1.index t (2 : Fin 4) = 0 ∧ win1_1.index t (3 : Fin 4) = 0
    ∧ win1_2.index t (0 : Fin 4) = t.val / 16 ∧ win1_2.index t (1 : Fin 4) = t.val % 16
    ∧ win1_2.index t (2 : Fin 4) = 0 ∧ win1_2.index t (3 : Fin 4) = 0 :=
  (by decide +kernel : ∀ t : Fin grid1.N, _)

/-- The body's stored block is the output array's block of batch `b`, head `h`, as soon as its two loaded blocks are
    the query and weight arrays' blocks of that batch and head. -/
theorem block_is_output (Q : SV.Idx → EReal) (Wt : SW.Idx → EReal)
    (x0 : Vec Ideal S1x1x4096x32 .f32) (x1 : Vec Ideal S1x1x32x32 .f32) (b h : Fin 16)
    (h0 : ∀ (l : Fin 4096) (d : Fin 32), x0 (ix4 0 0 l d) = Q (ix4 b h l d))
    (h1 : ∀ (d e : Fin 32), x1 (ix4 0 0 d e) = Wt (ix4 b h d e))
    (y : S1x1x4096x32.Idx) (i : SV.Idx)
    (hi0 : (i 0).val = b.val) (hi1 : (i 1).val = h.val) (hi2 : (i 2).val = (y 2).val) (hi3 : (i 3).val = (y 3).val) :
    k1_pay1 x0 x1 y = output Q Wt i := by
  obtain ⟨a0, a1, l, e, rfl⟩ : ∃ (a0 a1 : Fin 1) (l : Fin 4096) (e : Fin 32), y = ix4 a0 a1 l e := ⟨y 0, y 1, y 2, y 3, eq_ix4 y⟩
  have hi : i = ix4 b h l e := funext fun a => Fin.ext (by
    match a with
    | ⟨0, _⟩ => exact hi0
    | ⟨1, _⟩ => exact hi1
    | ⟨2, _⟩ => exact hi2
    | ⟨3, _⟩ => exact hi3)
  subst hi
  rw [output_payload, output_ix4]
  unfold outputAt
  simp only [h0, h1]

/-- WHAT POINT `t` WRITES BACK is block `t` of the output array of the query and weight arrays as the region finds them. -/
theorem flushed_output (c : Dev nD) (t : Fin cfg1.N) :
    (dat1 V c).flushed 2 t = ((cfg1.win 2).blk t).view.read (Elt Ideal) (output (V c main_arg0) (V c main_v11)) := by
  show (cfg1.win 2).cut (grid1.coords t) ((dat1 V c).after 2 t) = _
  rw [after1_2]
  unfold out1_2
  rw [View.canon_unit_zero zero_offsets]
  simp only [View.ld_unit_zero (S := S1x1x4096x32) zero_offsets, View.ld_unit_zero (S := S1x1x32x32) zero_offsets]
  obtain ⟨q0, q1, q2, q3, w0, w1, w2, w3, o0, o1, o2, o3⟩ := block_index t
  have hN : cfg1.N = 256 := N_1
  have ht : t.val < 256 := hN ▸ t.isLt
  funext j
  have hj0 : (j 0).val < 1 := (j 0).isLt
  have hj1 : (j 1).val < 1 := (j 1).isLt
  refine block_is_output (V c main_arg0) (V c main_v11) (iblk1 V c 0 t) (iblk1 V c 1 t)
    ⟨t.val / 16, by omega⟩ ⟨t.val % 16, by omega⟩ ?_ ?_ j (((cfg1.win 2).blk t).view.emb j) ?_ ?_ ?_ ?_
  · intro l d
    show V c main_arg0 (((cfg1.win 0).blk t).view.emb (ix4 0 0 l d)) = _
    refine congrArg (V c main_arg0) (funext fun a => Fin.ext ?_)
    match a with
    | ⟨0, _⟩ => show win1_0.index t (0 : Fin 4) * 1 + 1 * 0 = t.val / 16; omega
    | ⟨1, _⟩ => show win1_0.index t (1 : Fin 4) * 1 + 1 * 0 = t.val % 16; omega
    | ⟨2, _⟩ => show win1_0.index t (2 : Fin 4) * 4096 + 1 * l.val = l.val; omega
    | ⟨3, _⟩ => show win1_0.index t (3 : Fin 4) * 32 + 1 * d.val = d.val; omega
  · intro d e
    show V c main_v11 (((cfg1.win 1).blk t).view.emb (ix4 0 0 d e)) = _
    refine congrArg (V c main_v11) (funext fun a => Fin.ext ?_)
    match a with
    | ⟨0, _⟩ => show win1_1.index t (0 : Fin 4) * 1 + 1 * 0 = t.val / 16; omega
    | ⟨1, _⟩ => show win1_1.index t (1 : Fin 4) * 1 + 1 * 0 = t.val % 16; omega
    | ⟨2, _⟩ => show win1_1.index t (2 : Fin 4) * 32 + 1 * d.val = d.val; omega
    | ⟨3, _⟩ => show win1_1.index t (3 : Fin 4) * 32 + 1 * e.val = e.val; omega
  · show win1_2.index t (0 : Fin 4) * 1 + 1 * (j 0).val = t.val / 16; omega
  · show win1_2.index t (1 : Fin 4) * 1 + 1 * (j 1).val = t.val % 16; omega
  · show win1_2.index t (2 : Fin 4) * 4096 + 1 * (j 2).val = (j 2).val; omega
  · show win1_2.index t (3 : Fin 4) * 32 + 1 * (j 3).val = (j 3).val; omega

/-- An index of the output array is in point `t`'s block iff each coordinate is in the block's range on its axis. -/
theorem mem_block (t : Fin cfg1.N) (i : S16x16x4096x32.Idx) :
    i ∈ ((cfg1.win 2).blk t).view.set ↔ ∀ a : Fin 4, win1_2.index t a * S1x1x4096x32.size a ≤ (i a).val
      ∧ (i a).val < win1_2.index t a * S1x1x4096x32.size a + S1x1x4096x32.size a := by
  show i ∈ ((View.whole main_v12).slice (win1_2.rect t)).set ↔ _
  rw [View.set_slice_whole, Rect.mem_set_unit]
  exact Iff.rfl

/-- Every index `(b,h,l,e)` is in the block of point `16 b + h`, which is written back. -/
theorem covered (i : S16x16x4096x32.Idx) :
    ∃ t : Fin cfg1.N, (cfg1.win 2).flush t = true ∧ i ∈ ((cfg1.win 2).blk t).view.set := by
  have hi0 : (i 0).val < 16 := (i 0).isLt
  have hi1 : (i 1).val < 16 := (i 1).isLt
  have hi2 : (i 2).val < 4096 := (i 2).isLt
  have hi3 : (i 3).val < 32 := (i 3).isLt
  have hN : cfg1.N = 256 := N_1
  obtain ⟨t, ht⟩ : ∃ t : Fin cfg1.N, t.val = (i 0).val * 16 + (i 1).val := ⟨⟨(i 0).val * 16 + (i 1).val, by rw [hN]; omega⟩, rfl⟩
  obtain ⟨-, -, -, -, -, -, -, -, o0, o1, o2, o3⟩ := block_index t
  refine ⟨t, flush1_2 t, ?_⟩
  rw [mem_block]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 1 ≤ (i 1).val ∧ (i 1).val < win1_2.index t (1 : Fin 4) * 1 + 1; omega
  | ⟨2, _⟩ => show win1_2.index t (2 : Fin 4) * 4096 ≤ (i 2).val ∧ (i 2).val < win1_2.index t (2 : Fin 4) * 4096 + 4096; omega
  | ⟨3, _⟩ => show win1_2.index t (3 : Fin 4) * 32 ≤ (i 3).val ∧ (i 3).val < win1_2.index t (3 : Fin 4) * 32 + 32; omega

/-- THE OUTPUT ARRAY after the region: `output` of the query and weight arrays the region found. -/
theorem output_array (c : Dev nD) :
    (dat1 V c).arrAt 2 cfg1.N = output (V c main_arg0) (V c main_v11) :=
  (dat1 V c).arrAt_eq_of_cover 2 _ (fun t _ => flushed_output V c t) covered

end Cert.KernelIdeal.OutputArray

end
-- ==== Proof.Weights.lean ====
/-
  The attention weights as ONE function of the score array: the softmax along the batch axis.

  Both programs apply the same host operations to their score arrays, in the same order: the maximum over the batch axis
  (a fold of `max` from `-∞`, then `max` with a splat of `-∞`), broadcast back along the batch axis and subtracted;
  the exponential; its sum over the batch axis from `0`, broadcast back; and the quotient. The proof never opens this
  function: equal score arrays go in, so equal weights come out.
-/
import proofs.«105160_j53334903881772_1_alg».proof.Proof.Gen.KernelIdeal
import Idealize.ShloMosaic.PureOps.Ideal

noncomputable section

namespace Cert.BatchSoftmaxAttention

open Cert.KernelIdeal Idealize.ShloMosaic
open Cert.KernelIdeal.Facts₀

/-- The maximum over the batch axis, position by position, kept as a `[16,32,32]` array. -/
def batchMax (x : FVec Ideal S16x16x32x32 .f32) : FVec Ideal S16x32x32 .f32 :=
  maximumf (broadcastInDim S16x32x32 ![] bcast_S_S16x32x32 (constant (F := Ideal) S_ .f32 0xFF800000#32))
    (Host.reduce FloatOps.maximumf x (constant (F := Ideal) S_ .f32 0xFF800000#32) reducesTo_S16x16x32x32_S16x32x32_d0 h_S_)

/-- A `[16,32,32]` array repeated along a new leading batch axis of extent 16. -/
def alongBatch (y : FVec Ideal S16x32x32 .f32) : FVec Ideal S16x16x32x32 .f32 :=
  broadcastInDim S16x16x32x32 ![0, 1, 2, 3] bcast_S1x16x32x32_S16x16x32x32_0_1_2_3
    (broadcastInDim S1x16x32x32 ![1, 2, 3] bcast_S16x32x32_S1x16x32x32_1_2_3 y)

/-- The exponentials of the scores less their batch maximum. -/
def shiftedExp (x : FVec Ideal S16x16x32x32 .f32) : FVec Ideal S16x16x32x32 .f32 :=
  Host.exp (subf x (alongBatch (batchMax x)))

/-- The softmax along the batch axis. -/
def batchSoftmax (x : FVec Ideal S16x16x32x32 .f32) : FVec Ideal S16x16x32x32 .f32 :=
  Host.divf (shiftedExp x)
    (alongBatch (Host.reduceAdd (shiftedExp x) (constant (F := Ideal) S_ .f32 0x00000000#32) reducesTo_S16x16x32x32_S16x32x32_d0 h_S_))

end Cert.BatchSoftmaxAttention

end
-- ==== Proof.KernelValue.lean ====
/-
  The idealized kernel's two results as the specification's functions of the arguments.

  Follow the buffer contents through the three segments. The scores region leaves `scores k v` in the score buffer
  (`k`, `v` the launch contents of the key and value arguments: the region finds them untouched). The host stretch
  writes the softmax along the batch axis of the score buffer into the weight buffer and leaves the query argument
  alone. The output region reads the query argument and the weight buffer through its two input windows, never writing
  them back, and leaves `output q w` in the output buffer. So at the return the weight buffer holds
  `batchSoftmax (scores k v)` and the output buffer `output q (batchSoftmax (scores k v))`.
-/
import proofs.«105160_j53334903881772_1_alg».proof.Proof.KernelRun
import proofs.«105160_j53334903881772_1_alg».proof.Proof.ScoresArray
import proofs.«105160_j53334903881772_1_alg».proof.Proof.OutputArray
import proofs.«105160_j53334903881772_1_alg».proof.Proof.Weights
import Idealize.ShloMosaic.Lib.StableHlo.Run

set_option maxRecDepth 16384

noncomputable section

namespace Cert.KernelIdeal.KernelValue

open Cert.KernelIdeal Cert.KernelIdeal.Gen Cert.BatchSoftmaxAttention
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After the scores region the score buffer holds the scores of the launched keys and values. -/
theorem scores_buffer (c : Dev nD) :
    W1 m ρ c (Proc.devRef .tc main_v0)
      = scores (m ((c : Thread nD τ).loc main_arg1)) (m ((c : Thread nD τ).loc main_arg2)) :=
  (W1_arr m ρ c 2).trans (ScoresArray.scores_array (V0 m ρ) c)

/-- The host stretch writes the softmax along the batch axis of the score buffer into the weight buffer. -/
theorem weights_after_host (c : Dev nD) :
    W2 m ρ c (Proc.devRef .tc main_v11) = batchSoftmax (W1 m ρ c (Proc.devRef .tc main_v0)) := by
  show StableHlo.after hostOps1 (W1 m ρ c) (Proc.devRef .tc main_v11) = _
  after_results
  rfl

/-- So the output region finds the weights of the launched keys and values in its second window's array. -/
theorem weights_at_entry (c : Dev nD) :
    V2 m ρ c main_v11
      = batchSoftmax (scores (m ((c : Thread nD τ).loc main_arg1)) (m ((c : Thread nD τ).loc main_arg2))) :=
  (weights_after_host m ρ c).trans (congrArg batchSoftmax (scores_buffer m ρ c))

/-- The output region reads the query argument through an input window: the array keeps its entry contents. -/
theorem queries_kept (c : Dev nD) : W3 m ρ c (Proc.devRef .tc main_arg0) = V2 m ρ c main_arg0 :=
  (W3_arr m ρ c 0).trans (((dat1 (V2 m ρ) c).arrAt_in 0 rfl _).trans (A_eq1 (V2 m ρ) c 0))

/-- The output region finds the query argument as launched. -/
theorem queries_at_entry (c : Dev nD) : V2 m ρ c main_arg0 = m ((c : Thread nD τ).loc main_arg0) :=
  (queries_kept m ρ c).symm.trans (W3_main_arg0 m ρ c)

/-- The output region reads the weight buffer through an input window: it ends as the region found it. -/
theorem weights_kept (c : Dev nD) : W3 m ρ c (Proc.devRef .tc main_v11) = V2 m ρ c main_v11 :=
  (W3_arr m ρ c 1).trans (((dat1 (V2 m ρ) c).arrAt_in 1 rfl _).trans (A_eq1 (V2 m ρ) c 1))

/-- At the return the weight buffer holds the softmax along the batch axis of the scores. -/
theorem weights_at_return (c : Dev nD) :
    W3 m ρ c (Proc.devRef .tc main_v11)
      = batchSoftmax (scores (m ((c : Thread nD τ).loc main_arg1)) (m ((c : Thread nD τ).loc main_arg2))) :=
  (weights_kept m ρ c).trans (weights_at_entry m ρ c)

/-- At the return the output buffer holds the queries contracted with those weights. -/
theorem output_at_return (c : Dev nD) :
    W3 m ρ c (Proc.devRef .tc main_v12)
      = output (m ((c : Thread nD τ).loc main_arg0))
          (batchSoftmax (scores (m ((c : Thread nD τ).loc main_arg1)) (m ((c : Thread nD τ).loc main_arg2)))) := by
  have h : W3 m ρ c (Proc.devRef .tc main_v12) = output (V2 m ρ c main_arg0) (V2 m ρ c main_v11) :=
    (W3_arr m ρ c 2).trans (OutputArray.output_array (V2 m ρ) c)
  rw [h, queries_at_entry m ρ c, weights_at_entry m ρ c]

/-- THE RUN: every weakly fair execution terminates, nothing faulting, with the output and the weights at the
    specification's functions of the launched arguments, and the arguments unchanged. -/
theorem run : θ_run defs (onTc (τ := τ) (main (F := Ideal))) ⟨m, fun _ => 0, ρ⟩ (fun r => ∀ c : Dev nD,
      r.2.mem ((c.tc : Thread nD τ).loc main_v12)
        = output (m ((c.tc : Thread nD τ).loc main_arg0))
            (batchSoftmax (scores (m ((c.tc : Thread nD τ).loc main_arg1)) (m ((c.tc : Thread nD τ).loc main_arg2))))
      ∧ r.2.mem ((c.tc : Thread nD τ).loc main_v11)
        = batchSoftmax (scores (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans (output_at_return m ρ c), (h c).2.1.trans (weights_at_return m ρ c), (h c).2.2⟩)
    (Contents.run_results m ρ)

end Cert.KernelIdeal.KernelValue

end
-- ==== Proof.ScaleLaw.lean ====
/-
  The one arithmetic law that joins the two programs' score scaling, on the extended reals.

  The kernel multiplies the contraction `∑ₛ K·V` by the f32 literal `0x3C800000`, which denotes the dyadic
  `2⁻⁶ = 1/64` exactly. The reference divides the same contraction by `√4096`, the square root taken on the
  host of the literal `0x45800000 = 4096 = 64²`. On the extended reals the square root of `4096` is `64`, and
  division by the nonzero real `64` is multiplication by `1/64` at every extended real, the infinities included;
  so the two scalings are one function and no finiteness of the contraction is needed.
-/
import Idealize.ShloMosaic.PureOps.Ideal
import Idealize.ShloMosaic.PureOps.Ideal.Laws

noncomputable section

namespace Cert.BatchSoftmaxAttention

open Idealize.ShloMosaic

/-- The f32 pattern `0x45800000` denotes the real `4096`. -/
theorem ofBits_4096 : Ideal.ofBits .f32 0x45800000#32 = ((4096 : ℝ) : EReal) := by
  simp [Ideal.ofBits, Ideal.ieee, -EReal.coe_mul]; norm_num

/-- The f32 pattern `0x3C800000` denotes the real `1/64`. -/
theorem ofBits_inv64 : Ideal.ofBits .f32 0x3C800000#32 = ((1 / 64 : ℝ) : EReal) := by
  simp [Ideal.ofBits, Ideal.ieee, -EReal.coe_mul]; norm_num

/-- `√4096 = 64` on the extended reals: `4096 = 64²` and `64 ≥ 0`. -/
theorem sqrt_4096 : Ideal.sqrt ((4096 : ℝ) : EReal) = ((64 : ℝ) : EReal) := by
  show (if (4096 : ℝ) < 0 then (⊥ : EReal) else (Real.sqrt 4096 : EReal)) = _
  rw [if_neg (by norm_num)]
  have h : Real.sqrt 4096 = 64 := by
    rw [show (4096 : ℝ) = 64 ^ 2 by norm_num]
    exact Real.sqrt_sq (by norm_num)
  rw [h]

/-- Dividing by the host's `√4096` is multiplying by the kernel's literal `1/64`, at every extended real. -/
theorem div_sqrt_eq_mul (s : EReal) :
    Ideal.div s (Ideal.sqrt (Ideal.ofBits .f32 0x45800000#32)) = s * Ideal.ofBits .f32 0x3C800000#32 := by
  rw [ofBits_4096, sqrt_4096, ofBits_inv64, Ideal.div_coe (by norm_num : (64 : ℝ) ≠ 0)]

end Cert.BatchSoftmaxAttention

end
-- ==== Proof.ReferenceValue.lean ====
/-
  The reference's two results as the specification's functions of the arguments.

  The reference contracts keys with values over the sequence for every batch and head at once (a batched
  `dot_general`), divides by `√4096`, takes the softmax along the batch axis, and contracts the queries with the weights
  over the head dimension (a second batched `dot_general`). Read at an index on the extended reals, the first contraction
  is the sum over `s` of `k(b,h,d,s) · v(b,h,s,e)`; its quotient by `√4096` is its product with `2⁻⁶` (the scaling law),
  so the scaled scores are `scores k v`. The softmax is the shared function `batchSoftmax`, operation for operation.
  The second contraction is the sum over `d` of `q(b,h,l,d) · w(b,h,d,e)`: `output q w`.
-/
import proofs.«105160_j53334903881772_1_alg».proof.Proof.Gen.ReferenceIdeal.Read
import proofs.«105160_j53334903881772_1_alg».proof.Proof.Spec
import proofs.«105160_j53334903881772_1_alg».proof.Proof.ScaleLaw
import proofs.«105160_j53334903881772_1_alg».proof.Proof.Weights

noncomputable section

namespace Cert.ReferenceIdeal.RefValue

open Cert.ReferenceIdeal Cert.ReferenceIdeal.Read Cert.BatchSoftmaxAttention
open Idealize.ShloMosaic Idealize.ShloMosaic.ValueIdx

/-- The reference's scaled scores are the specification's. -/
theorem scaled_scores_eq (x1 : SK.Idx → EReal) (x2 : SV.Idx → EReal) :
    val_main_v3 (F := Ideal) x1 x2 = scores x1 x2 := by
  funext i
  obtain ⟨b, h, d, e, rfl⟩ : ∃ (b h : Fin 16) (d e : Fin 32), i = ix4 b h d e := ⟨i 0, i 1, i 2, i 3, eq_ix4 i⟩
  rw [val_main_v3_apply, val_main_v0_apply, val_main_v2_apply, val_main_v1_apply, val_main_cst_apply, scores_ix4]
  unfold scoreAt
  simp only [Ideal.hostDivf_def, Ideal.hostUnary_sqrt_def, Ideal.ofBits_def]
  rw [div_sqrt_eq_mul]
  refine congrArg (· * _) (Finset.sum_congr rfl fun s _ => ?_)
  have el : lidx_main_v0 (ix4 b h d e) s = ix4 b h d s := funext fun a => Fin.ext (by
    match a with | ⟨0, _⟩ => rfl | ⟨1, _⟩ => rfl | ⟨2, _⟩ => rfl | ⟨3, _⟩ => rfl)
  have er : ridx_main_v0 (ix4 b h d e) s = ix4 b h s e := funext fun a => Fin.ext (by
    match a with | ⟨0, _⟩ => rfl | ⟨1, _⟩ => rfl | ⟨2, _⟩ => rfl | ⟨3, _⟩ => rfl)
  rw [el, er]

/-- The reference's weights are the shared softmax of its scaled scores: the same operations in the same order. -/
theorem weights_eq (x1 : SK.Idx → EReal) (x2 : SV.Idx → EReal) :
    val_main_v14 (F := Ideal) x1 x2 = batchSoftmax (val_main_v3 (F := Ideal) x1 x2) := rfl

/-- The reference's output is the specification's contraction of the queries with its weights. -/
theorem output_eq (x0 : SV.Idx → EReal) (x1 : SK.Idx → EReal) (x2 : SV.Idx → EReal) :
    val_main_v15 (F := Ideal) x0 x1 x2 = output x0 (val_main_v14 (F := Ideal) x1 x2) := by
  funext i
  obtain ⟨b, h, l, e, rfl⟩ : ∃ (b h : Fin 16) (l : Fin 4096) (e : Fin 32), i = ix4 b h l e := ⟨i 0, i 1, i 2, i 3, eq_ix4 i⟩
  rw [val_main_v15_apply, output_ix4]
  unfold outputAt
  refine Finset.sum_congr rfl fun d _ => ?_
  have el : lidx_main_v15 (ix4 b h l e) d = ix4 b h l d := funext fun a => Fin.ext (by
    match a with | ⟨0, _⟩ => rfl | ⟨1, _⟩ => rfl | ⟨2, _⟩ => rfl | ⟨3, _⟩ => rfl)
  have er : ridx_main_v15 (ix4 b h l e) d = ix4 b h d e := funext fun a => Fin.ext (by
    match a with | ⟨0, _⟩ => rfl | ⟨1, _⟩ => rfl | ⟨2, _⟩ => rfl | ⟨3, _⟩ => rfl)
  rw [el, er]

/-- The weights result: the softmax along the batch axis of the specification's scores. -/
theorem weights_result (x1 : SK.Idx → EReal) (x2 : SV.Idx → EReal) :
    val_main_v14 (F := Ideal) x1 x2 = batchSoftmax (scores x1 x2) := by
  rw [weights_eq, scaled_scores_eq]

/-- The output result: the queries contracted with those weights. -/
theorem output_result (x0 : SV.Idx → EReal) (x1 : SK.Idx → EReal) (x2 : SV.Idx → EReal) :
    val_main_v15 (F := Ideal) x0 x1 x2 = output x0 (batchSoftmax (scores x1 x2)) := by
  rw [output_eq, weights_result]

end Cert.ReferenceIdeal.RefValue

end
-- ==== Proof.lean ====
/-
  Attention with the softmax taken along the batch axis: a two-kernel program against its jnp reference, on the
  extended reals.

  Both programs compute, from queries `q : [16,16,4096,32]`, keys `k : [16,16,32,4096]` and values `v : [16,16,4096,32]`,
    scores  = (k · v) scaled by 1/√4096, a `[16,16,32,32]` array (one 32 × 32 matrix per batch and head),
    weights = the softmax of the scores along the BATCH axis,
    output  = q · weights, a `[16,16,4096,32]` array,
  and return the output and the weights.

  The kernel program does the two matrix products in two pallas_calls, one grid point per batch and head, its operands
  rounded to bf16 on the way in (the identity on the extended reals), and scales the first product by the literal
  `2⁻⁶ = 1/64`; the softmax between them is plain host code. The reference does the products as two batched
  `dot_general`s and divides the first by `√4096` computed on the host. On the extended reals each product, read at an
  element, is the same `Fin`-indexed sum on both sides; dividing by `√4096 = 64` is multiplying by `1/64` at every
  extended real (Proof/ScaleLaw.lean); and the softmax is the same operations in the same order, carried as one function
  (Proof/Weights.lean). No sum is rearranged and no factor moved across a sum, so the precondition (finite inputs) is not
  used. The ideal pass rewrote nothing, so the idealization claim is trivial.

  The modules: Proof/Spec.lean (the three functions), Proof/ScaleLaw.lean, Proof/Weights.lean, Proof/KernelPayloads.lean
  (what each kernel body stores, at an element), Proof/ScoresArray.lean and Proof/OutputArray.lean (each region's
  blocks assembled into its whole array), Proof/KernelRun.lean (the run with every buffer's final contents named),
  Proof/KernelValue.lean (the kernel program's results), Proof/ReferenceValue.lean (the reference's results).
-/
import proofs.«105160_j53334903881772_1_alg».proof.Defs
import proofs.«105160_j53334903881772_1_alg».proof.Proof.Gen.Kernel
import proofs.«105160_j53334903881772_1_alg».proof.Proof.Gen.Kernel.Skeleton
import proofs.«105160_j53334903881772_1_alg».proof.Proof.Gen.Kernel.Launch
import proofs.«105160_j53334903881772_1_alg».proof.Proof.Gen.Kernel.Points
import proofs.«105160_j53334903881772_1_alg».proof.Proof.Gen.Kernel.Frame
import proofs.«105160_j53334903881772_1_alg».proof.Proof.Gen.KernelIdeal
import proofs.«105160_j53334903881772_1_alg».proof.Proof.Gen.KernelIdeal.Skeleton
import proofs.«105160_j53334903881772_1_alg».proof.Proof.Gen.KernelIdeal.Launch
import proofs.«105160_j53334903881772_1_alg».proof.Proof.Gen.KernelIdeal.Points
import proofs.«105160_j53334903881772_1_alg».proof.Proof.Gen.KernelIdeal.Frame
import proofs.«105160_j53334903881772_1_alg».proof.Proof.Gen.ReferenceIdeal
import proofs.«105160_j53334903881772_1_alg».proof.Proof.Gen.Pre_finite_inputs
import proofs.«105160_j53334903881772_1_alg».proof.Proof.Gen.ReferenceIdeal.Run
import proofs.«105160_j53334903881772_1_alg».proof.Proof.Gen.ReferenceIdeal.Read
import proofs.«105160_j53334903881772_1_alg».proof.Proof.KernelValue
import proofs.«105160_j53334903881772_1_alg».proof.Proof.ReferenceValue
import Idealize.ShloMosaic.Adequacy
import Idealize.ShloMosaic.Init

noncomputable section

namespace Cert.Proof

open Idealize.ShloMosaic Idealize.SL.Sem Cert.BatchSoftmaxAttention

/-- The printed kernel program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the three arguments both programs end with the output at
    `output q (batchSoftmax (scores k v))` and the weights at `batchSoftmax (scores k v)`. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.ReferenceIdeal.RefValue.output_result,
      (hagree c).1, (hagree c).2.1, (hagree c).2.2]
  · rw [(h c).2.1, Cert.ReferenceIdeal.Read.val_main_v14_eq, Cert.ReferenceIdeal.RefValue.weights_result,
      (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
